-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S65536x1 : Shape := ⟨2, ![65536, 1]⟩
abbrev S65536 : Shape := ⟨1, ![65536]⟩
abbrev S65536x1024 : Shape := ⟨2, ![65536, 1024]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S1024_S1x1024_1 : S1024.BroadcastsInDim S1x1024 (![1] : Fin 1 → Fin S1x1024.rank)
  slices_S65536x2_S65536x1_0_1 : S65536x2.Slices ![0, 1] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S1x1024_S65536x1024_0_1 : S1x1024.BroadcastsInDim S65536x1024 (![0, 1] : Fin 2 → Fin S65536x1024.rank)
  bcast_S65536x1_S65536x1024_0_1 : S65536x1.BroadcastsInDim S65536x1024 (![0, 1] : Fin 2 → Fin S65536x1024.rank)
  bcast_S_S65536x1024 : S_.BroadcastsInDim S65536x1024 (![] : Fin 0 → Fin S65536x1024.rank)
  reducesTo_S65536x1024_S_d0_1 : S65536x1024.ReducesTo [0, 1] S_

variable [Facts]

def fn_part1 {F : FTy → Type} [FloatOps F] (main_arg0 : FVec F S65536x2 .f32) (main_arg2 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := broadcastInDim S1x1024 ![1] bcast_S1024_S1x1024_1 main_arg2
  let main_v20 : FVec F S1x1024 .f32 := mulf main_v19 main_v19
  let main_v21 : FVec F S65536x1 .f32 := (extractStridedSlice S65536x1 ![0, 1] · slices_S65536x2_S65536x1_0_1) main_arg0
  let main_v22 : FVec F S65536 .f32 := shapeCast S65536 main_v21 shapeCasts_S65536x1_S65536
  let main_cst_6 : FVec F S_ .f32 := constant S_ .f32 0xBF000000#32
  let main_v23 : FVec F S65536 .f32 := broadcastInDim S65536 ![] bcast_S_S65536 main_cst_6
  let main_v24 : FVec F S65536 .f32 := Host.divf main_v23 main_v22
  let main_v25 : FVec F S65536x1 .f32 := broadcastInDim S65536x1 ![0] bcast_S65536_S65536x1_0 main_v24
  let main_v26 : FVec F S65536x1024 .f32 := broadcastInDim S65536x1024 ![0, 1] bcast_S1x1024_S65536x1024_0_1 main_v20
  let main_v27 : FVec F S65536x1024 .f32 := broadcastInDim S65536x1024 ![0, 1] bcast_S65536x1_S65536x1024_0_1 main_v25
  let main_v28 : FVec F S65536x1024 .f32 := addf main_v26 main_v27
  let main_cst_7 : FVec F S_ .f32 := constant S_ .f32 0x00000000#32
  let main_v29 : FVec F S65536x1024 .f32 := broadcastInDim S65536x1024 ![] bcast_S_S65536x1024 main_cst_7
  let main_v30 : IVec S65536x1024 1 := cmpf .ogt main_v28 main_v29
  let main_c_8 : IVec S_ 1 := constantI S_ 1 1#1
  let main_v31 : IVec S_ 1 := (fun x v => Host.reduce IntOp.andi x v reducesTo_S65536x1024_S_d0_1 h_S_) main_v30 main_c_8
  let main_v32 : IVec S_ 1 := andi main_v18 main_v31
  main_v32

def fn {F : FTy → Type} [FloatOps F] (main_arg0 : FVec F S65536x2 .f32) (main_arg1 : FVec F S1024 .f32) (main_arg2 : FVec F S1024 .f32) (main_arg3 : FVec F S1024x1024 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg2 main_v13 main_v16
-- ==== Kernel.lean ====
abbrev S65536x2 : Shape := ⟨2, ![65536, 2]⟩
abbrev S1024 : Shape := ⟨1, ![1024]⟩
abbrev S1024x1024 : Shape := ⟨2, ![1024, 1024]⟩
abbrev S1x1024 : Shape := ⟨2, ![1, 1024]⟩
abbrev S65536x1024 : Shape := ⟨2, ![65536, 1024]⟩
abbrev S1024x2 : Shape := ⟨2, ![1024, 2]⟩
abbrev S1024x1 : Shape := ⟨2, ![1024, 1]⟩
abbrev S1x256 : Shape := ⟨2, ![1, 256]⟩
abbrev S1024x256 : Shape := ⟨2, ![1024, 256]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S65536x2, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S65536x1024, .f32⟩
  | .local _ .vmem, ⟨0, _⟩ => ⟨S1024x2, .f32⟩
  | .local _ .vmem, ⟨1, _⟩ => ⟨S1024x2, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  bitsLt_bf16_f32 : FTy.bits .bf16 < FTy.bits .f32
  inb_S1024x2_S1024x2_0_0 : ∀ a, (![0, 0] : Fin 2 → Nat) a + S1024x2.size a ≤ S1024x2.size a
  h_S1024x2 : 0 < S1024x2.numel
  slices_S1024x2_o0_0_S1024x1 : S1024x2.Slices ![0, 0] S1024x1
  slices_S1024x2_o0_1_S1024x1 : S1024x2.Slices ![0, 1] S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x256_0_0 : ∀ a, (![0, 0] : Fin 2 → Nat) a + S1x256.size a ≤ S1x1024.size a
  h_S1x256 : 0 < S1x256.numel
  shapeCasts_S1x256_S1x256 : S1x256.ShapeCasts S1x256
  broadcasts_S1x256_S1024x256 : S1x256.Broadcasts S1024x256
  broadcasts_S1024x1_S1024x256 : S1024x1.Broadcasts S1024x256
  inb_S1024x1024_S256x1024_0_0 : ∀ a, (![0, 0] : Fin 2 → Nat) a + S256x1024.size a ≤ S1024x1024.size a
  h_S256x1024 : 0 < S256x1024.numel
  shapeCasts_S256x1024_S256x1024 : S256x1024.ShapeCasts S256x1024
  inb_S1x1024_S1x256_0_256 : ∀ a, (![0, 256] : Fin 2 → Nat) a + S1x256.size a ≤ S1x1024.size a
  inb_S1024x1024_S256x1024_256_0 : ∀ a, (![256, 0] : Fin 2 → Nat) a + S256x1024.size a ≤ S1024x1024.size a
  inb_S1x1024_S1x256_0_512 : ∀ a, (![0, 512] : Fin 2 → Nat) a + S1x256.size a ≤ S1x1024.size a
  inb_S1024x1024_S256x1024_512_0 : ∀ a, (![512, 0] : Fin 2 → Nat) a + S256x1024.size a ≤ S1024x1024.size a
  inb_S1x1024_S1x256_0_768 : ∀ a, (![0, 768] : Fin 2 → Nat) a + S1x256.size a ≤ S1x1024.size a
  inb_S1024x1024_S256x1024_768_0 : ∀ a, (![768, 0] : Fin 2 → Nat) a + S256x1024.size a ≤ S1024x1024.size a
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S65536x2.size a
  hwx0_0 : ∀ i : grid0.Coords, EltTy.bits .f32 = 32 ∨ (Rect.block (s := S65536x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x2 : Shape := ⟨2, ![65536, 2]⟩
abbrev S1024 : Shape := ⟨1, ![1024]⟩
abbrev S1024x1024 : Shape := ⟨2, ![1024, 1024]⟩
abbrev S65536x1 : Shape := ⟨2, ![65536, 1]⟩
abbrev S65536 : Shape := ⟨1, ![65536]⟩
abbrev S_ : Shape := ⟨0, ![]⟩
abbrev S1x1024 : Shape := ⟨2, ![1, 1024]⟩
abbrev S65536x1024 : Shape := ⟨2, ![65536, 1024]⟩

abbrev nBuf : Space → Nat
  | .hbm => 35
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S65536x1, .f32⟩
  | .hbm, ⟨5, _⟩ => ⟨S65536, .f32⟩
  | .hbm, ⟨6, _⟩ => ⟨S_, .f32⟩
  | .hbm, ⟨7, _⟩ => ⟨S65536, .f32⟩
  | .hbm, ⟨8, _⟩ => ⟨S65536, .f32⟩
  | .hbm, ⟨9, _⟩ => ⟨S65536x1, .f32⟩
  | .hbm, ⟨10, _⟩ => ⟨S65536, .f32⟩
  | .hbm, ⟨11, _⟩ => ⟨S65536, .f32⟩
  | .hbm, ⟨12, _⟩ => ⟨S1x1024, .f32⟩
  | .hbm, ⟨13, _⟩ => ⟨S1x1024, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S65536x2_S65536x1_0_1 : S65536x2.Slices ![0, 1] S65536x1
  shapeCasts_S65536x1_S65536 : S65536x1.ShapeCasts S65536
  bcast_S_S65536 : S_.BroadcastsInDim S65536 (![] : Fin 0 → Fin S65536.rank)
  slices_S65536x2_S65536x1_0_0 : S65536x2.Slices ![0, 0] S65536x1
  bcast_S1024_S1x1024_1 : S1024.BroadcastsInDim S1x1024 (![1] : Fin 1 → Fin S1x1024.rank)
  bcast_S65536_S65536x1_0 : S65536.BroadcastsInDim S65536x1 (![0] : Fin 1 → Fin S65536x1.rank)
  bcast_S1x1024_S65536x1024_0_1 : S1x1024.BroadcastsInDim S65536x1024 (![0, 1] : Fin 2 → Fin S65536x1024.rank)
  bcast_S65536x1_S65536x1024_0_1 : S65536x1.BroadcastsInDim S65536x1024 (![0, 1] : Fin 2 → Fin S65536x1024.rank)
  bcast_S_S65536x1024 : S_.BroadcastsInDim S65536x1024 (![] : Fin 0 → Fin S65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.InvSqrtLaw.lean ====
/-
  The one law that joins the two programs, on the extended reals.

  The kernel multiplies by the reciprocal square root of a variance `v`; the reference divides by
  its square root. For `0 < v` the two agree for EVERY extended real numerator `x`:
  at a finite `v` the reciprocal square root is the real `(√v)⁻¹` and the quotient by the nonzero
  real `√v` is the product with `1 / √v`; at `v = ⊤` the reciprocal square root is `0` and the
  quotient by `√⊤ = ⊤` is the product with `⊤⁻¹ = 0`. (For `v ≤ 0` the two differ: the
  quotient by `√0 = 0` or by the value `⊥` given to the root of a negative number is not the product
  with `⊤` or `⊥`.)
-/
import Idealize.ShloMosaic.PureOps.Ideal

noncomputable section

namespace Cert.InvSqrtLaw

open Idealize.ShloMosaic

/-- For a positive variance, multiplying by the reciprocal square root is dividing by the square root. -/
theorem mul_rsqrt_eq_div_sqrt {v : EReal} (hv : 0 < v) (x : EReal) :
    x * Ideal.rsqrt v = Ideal.div x (Ideal.sqrt v) := by
  induction v using EReal.rec with
  | bot => exact absurd hv (by simp)
  | top =>
    rw [Ideal.rsqrt_top, Ideal.sqrt_top, Ideal.div, if_neg (by simp), EReal.inv_top]
  | coe r =>
    have hr : 0 < r := by exact_mod_cast hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]

end Cert.InvSqrtLaw

end
-- ==== Proof.Score.lean ====
/-
  The specification: what both programs compute, entry by entry, on the extended reals.

  A query `n` carries natural parameters `θ(n,0), θ(n,1)` of a Gaussian: its variance is `σ² = (-1/2) / θ(n,1)`
  and its mean `μ = θ(n,0) · σ²`. Basis function `j` is a Gaussian of centre `bμ j` and width `bσ j`; its score
  against the query is the density of a centred Gaussian of variance `v = (bσ j)² + σ²` at `μ - bμ j`,

      r(n,j) = c · exp((-1/2) · u · u) / √v,   u = (μ - bμ j) / √v,

  with `c` the single-precision word both programs carry for `1/√(2π)` (never evaluated: it is the same word on
  both sides), and entry `(n,d)` of the result is `∑ j, r(n,j) · Bv(j,d)` over the 1024 basis functions.

  The reference divides by `√v` twice (`scoreDiv`); the kernel multiplies by the reciprocal square root of `v`
  twice (`scoreMul`). For `0 < v` these are one number, whatever the other quantities are (finite or not).
-/
import Idealize.ShloMosaic.PureOps.Ideal
import Idealize.ShloMosaic.Lib.ValueIdx
import proofs.«120436_j25391846654038_2_alg».proof.Proof.InvSqrtLaw

noncomputable section

open scoped BigOperators

namespace Cert.Score

open Idealize.ShloMosaic Idealize.ShloMosaic.ValueIdx

/-- The word for `-1/2` that both programs carry. -/
abbrev negHalf : EReal := Ideal.ofBits .f32 0xBF000000#32
/-- The word for `1/√(2π)` that both programs carry. -/
abbrev normConst : EReal := Ideal.ofBits .f32 0x3ECC422A#32

/-- The query's variance from its second natural parameter: `σ² = (-1/2) / θ₁`. -/
def sigmaSq (b : EReal) : EReal := Ideal.div negHalf b

/-- The query's mean from its two natural parameters: `μ = θ₀ · σ²`. -/
def mean (a b : EReal) : EReal := a * sigmaSq b

/-- The variance under the square root: the basis width squared plus the query's variance. -/
def variance (s b : EReal) : EReal := s * s + sigmaSq b

/-- The basis score with the two quotients by the standard deviation (the reference's arrangement);
    `a, b` the query's natural parameters, `c, s` the basis function's centre and width. -/
def scoreDiv (a b c s : EReal) : EReal :=
  Ideal.div (normConst * Ideal.exp (negHalf * Ideal.div (mean a b - c) (Ideal.sqrt (variance s b))
      * Ideal.div (mean a b - c) (Ideal.sqrt (variance s b))))
    (Ideal.sqrt (variance s b))

/-- The basis score with the two products by the reciprocal standard deviation (the kernel's arrangement). -/
def scoreMul (a b c s : EReal) : EReal :=
  normConst * Ideal.exp (negHalf * ((mean a b - c) * Ideal.rsqrt (variance s b))
      * ((mean a b - c) * Ideal.rsqrt (variance s b)))
    * Ideal.rsqrt (variance s b)

/-- Where the variance under the root is positive the two arrangements are one number. -/
theorem scoreMul_eq_scoreDiv {a b c s : EReal} (h : 0 < variance s b) : scoreMul a b c s = scoreDiv a b c s := by
  unfold scoreMul scoreDiv
  rw [Cert.InvSqrtLaw.mul_rsqrt_eq_div_sqrt h, Cert.InvSqrtLaw.mul_rsqrt_eq_div_sqrt h]

abbrev Sθ : Shape := ⟨2, ![65536, 2]⟩
abbrev Sb : Shape := ⟨1, ![1024]⟩
abbrev SBv : Shape := ⟨2, ![1024, 1024]⟩
abbrev Sout : Shape := ⟨2, ![65536, 1024]⟩

/-- Entry `(n, d)` of the result: the scores of query `n` against the 1024 basis functions, contracted with
    column `d` of the value coefficients. -/
def entry (θ : Sθ.Idx → EReal) (bμ bσ : Sb.Idx → EReal) (Bv : SBv.Idx → EReal) (n : Fin 65536) (d : Fin 1024) : EReal :=
  ∑ j : Fin 1024, scoreDiv (θ (ix2 n (0 : Fin 2))) (θ (ix2 n (1 : Fin 2))) (bμ (ix1 j)) (bσ (ix1 j)) * Bv (ix2 j d)

/-- The whole result array as one function of the four argument arrays. -/
def context (θ : Sθ.Idx → EReal) (bμ bσ : Sb.Idx → EReal) (Bv : SBv.Idx → EReal) : Sout.Idx → EReal :=
  fun i => entry θ bμ bσ Bv (i 0) (i 1)

theorem context_ix2 (θ : Sθ.Idx → EReal) (bμ bσ : Sb.Idx → EReal) (Bv : SBv.Idx → EReal) (n : Fin 65536) (d : Fin 1024) :
    context θ bμ bσ Bv (ix2 n d) = entry θ bμ bσ Bv n d := rfl

/-- The domain on which the reference's square root and quotients are ordinary: every variance under the root positive. -/
def PositiveVariance (θ : Sθ.Idx → EReal) (bσ : Sb.Idx → EReal) : Prop :=
  ∀ (n : Fin 65536) (j : Fin 1024), 0 < variance (bσ (ix1 j)) (θ (ix2 n (1 : Fin 2)))

end Cert.Score

end
-- ==== Proof.ReferenceValue.lean ====
/-
  The reference program read entry by entry.

  The reference forms, for a query `n` with natural parameters `θ(n,0), θ(n,1)` and a basis function `j` of centre
  `bμ j` and width `bσ j`, the query's variance `σ² = (-1/2) / θ(n,1)` and mean `μ = θ(n,0) · σ²`, the variance under
  the root `v = (bσ j)² + σ²`, the standardised offset `u = (μ - bμ j) / √v` and the score
  `r(n,j) = c · exp((-1/2) · u · u) / √v`; entry `(n,d)` of its result is `∑ j, r(n,j) · Bv(j,d)`.

  Each of its operations acts on whole arrays; read at one index, a slice, a reshape or a broadcast only moves the
  index, and an arithmetic operation acts on the elements. Following the index of entry `(n, j)` back through the
  layout operations lands on `θ(n,0)`, `θ(n,1)`, `bμ j` and `bσ j`, which is what this file records: the variance
  stage is `variance`, the score stage is `scoreDiv`, and the contraction is `context` of the specification.
-/
import proofs.«120436_j25391846654038_2_alg».proof.Proof.Gen.ReferenceIdeal.Read
import proofs.«120436_j25391846654038_2_alg».proof.Proof.Score

noncomputable section

open scoped BigOperators

namespace Cert.ReferenceIdeal.RefValue

open Idealize.ShloMosaic Idealize.ShloMosaic.ValueIdx Cert.ReferenceIdeal Cert.ReferenceIdeal.Read

/-! ## Where each layout operation sends the index of entry `(n, j)` -/

/-- The contraction reads its left operand at row `n`, column `k`. -/
theorem lidx_v27 (n : Fin 65536) (d k : Fin 1024) : lidx_main_v27 (ix2 n d) k = ix2 n k := by
  funext a; match a with | ⟨0, _⟩ => rfl | ⟨1, _⟩ => rfl

/-- The contraction reads its right operand at row `k`, column `d`. -/
theorem ridx_v27 (n : Fin 65536) (d k : Fin 1024) : ridx_main_v27 (ix2 n d) k = ix2 k d := by
  funext a; match a with | ⟨0, _⟩ => rfl | ⟨1, _⟩ => rfl

/-- A row of widths broadcast down the queries is read at its column. -/
theorem idx_v10 (n : Fin 65536) (j : Fin 1024) : idx_main_v10 (ix2 n j) = ix2 (0 : Fin 1) j := by
  funext a; match a with | ⟨0, _⟩ => rfl | ⟨1, _⟩ => rfl

theorem idx_v7 (j : Fin 1024) : idx_main_v7 (ix2 (0 : Fin 1) j) = ix1 j := by
  funext a; match a with | ⟨0, _⟩ => rfl

/-- A column of per-query values broadcast across the basis functions is read at its row. -/
theorem idx_v11 (n : Fin 65536) (j : Fin 1024) : idx_main_v11 (ix2 n j) = ix2 n (0 : Fin 1) := by
  funext a; match a with | ⟨0, _⟩ => rfl | ⟨1, _⟩ => rfl

theorem idx_v9 (n : Fin 65536) : idx_main_v9 (ix2 n (0 : Fin 1)) = ix1 n := by
  funext a; match a with | ⟨0, _⟩ => rfl

theorem idx_v1 (n : Fin 65536) : idx_main_v1 (ix1 n) = ix2 n (0 : Fin 1) := by
  funext a
  match a with
  | ⟨0, _⟩ => exact Fin.ext (Nat.div_one _)
  | ⟨1, _⟩ => rfl

/-- The slice of the second natural parameter reads column `1`. -/
theorem idx_v0 (n : Fin 65536) : idx_main_v0 (ix2 n (0 : Fin 1)) = ix2 n (1 : Fin 2) := by
  funext a; match a with | ⟨0, _⟩ => rfl | ⟨1, _⟩ => rfl

theorem idx_v16 (n : Fin 65536) (j : Fin 1024) : idx_main_v16 (ix2 n j) = ix2 n (0 : Fin 1) := by
  funext a; match a with | ⟨0, _⟩ => rfl | ⟨1, _⟩ => rfl

theorem idx_v14 (n : Fin 65536) : idx_main_v14 (ix2 n (0 : Fin 1)) = ix1 n := by
  funext a; match a with | ⟨0, _⟩ => rfl

theorem idx_v5 (n : Fin 65536) : idx_main_v5 (ix1 n) = ix2 n (0 : Fin 1) := by
  funext a
  match a with
  | ⟨0, _⟩ => exact Fin.ext (Nat.div_one _)
  | ⟨1, _⟩ => rfl

/-- The slice of the first natural parameter reads column `0`. -/
theorem idx_v4 (n : Fin 65536) : idx_main_v4 (ix2 n (0 : Fin 1)) = ix2 n (0 : Fin 2) := by
  funext a; match a with | ⟨0, _⟩ => rfl | ⟨1, _⟩ => rfl

theorem idx_v17 (n : Fin 65536) (j : Fin 1024) : idx_main_v17 (ix2 n j) = ix2 (0 : Fin 1) j := by
  funext a; match a with | ⟨0, _⟩ => rfl | ⟨1, _⟩ => rfl

theorem idx_v15 (j : Fin 1024) : idx_main_v15 (ix2 (0 : Fin 1) j) = ix1 j := by
  funext a; match a with | ⟨0, _⟩ => rfl

/-! ## The stages at an index -/

/-- The query's variance `σ² = (-1/2) / θ(n,1)`, as the reference forms it. -/
theorem sigmaSq_stage_apply (x0 : (⟨S65536x2, .f32⟩ : BufTy).Contents (Elt Ideal)) (n : Fin 65536) :
    val_main_v3 (F := Ideal) x0 (ix1 n) = Cert.Score.sigmaSq (x0 (ix2 n (1 : Fin 2))) := by
  rw [val_main_v3_apply, val_main_v2_apply, val_main_cst_apply, val_main_v1_apply, idx_v1, val_main_v0_apply, idx_v0]
  rfl

/-- The variance under the root at `(n, j)`: the basis width squared plus the query's variance. -/
theorem variance_stage_apply (x0 : (⟨S65536x2, .f32⟩ : BufTy).Contents (Elt Ideal))
    (x2 : (⟨S1024, .f32⟩ : BufTy).Contents (Elt Ideal)) (n : Fin 65536) (j : Fin 1024) :
    Cert.ReferenceIdeal.Read.val_main_v12 (F := Ideal) x0 x2 (ValueIdx.ix2 n j)
      = Cert.Score.variance (x2 (ValueIdx.ix1 j)) (x0 (ValueIdx.ix2 n (1 : Fin 2))) := by
  rw [val_main_v12_apply, val_main_v10_apply, idx_v10, val_main_v8_apply, val_main_v7_apply, idx_v7,
    val_main_v11_apply, idx_v11, val_main_v9_apply, idx_v9, sigmaSq_stage_apply]
  rfl

/-- The query's mean `μ = θ(n,0) · σ²`, as the reference forms it. -/
theorem mean_stage_apply (x0 : (⟨S65536x2, .f32⟩ : BufTy).Contents (Elt Ideal)) (n : Fin 65536) :
    val_main_v6 (F := Ideal) x0 (ix1 n) = Cert.Score.mean (x0 (ix2 n (0 : Fin 2))) (x0 (ix2 n (1 : Fin 2))) := by
  rw [val_main_v6_apply, val_main_v5_apply, idx_v5, val_main_v4_apply, idx_v4, sigmaSq_stage_apply]
  rfl

/-- The standard deviation `√v` at `(n, j)`. -/
theorem sqrt_stage_apply (x0 : (⟨S65536x2, .f32⟩ : BufTy).Contents (Elt Ideal))
    (x2 : (⟨S1024, .f32⟩ : BufTy).Contents (Elt Ideal)) (n : Fin 65536) (j : Fin 1024) :
    val_main_v13 (F := Ideal) x0 x2 (ix2 n j)
      = Ideal.sqrt (Cert.Score.variance (x2 (ix1 j)) (x0 (ix2 n (1 : Fin 2)))) := by
  rw [val_main_v13_apply, variance_stage_apply]
  rfl

/-- The standardised offset `u = (μ - bμ j) / √v` at `(n, j)`. -/
theorem offset_stage_apply (x0 : (⟨S65536x2, .f32⟩ : BufTy).Contents (Elt Ideal))
    (x1 x2 : (⟨S1024, .f32⟩ : BufTy).Contents (Elt Ideal)) (n : Fin 65536) (j : Fin 1024) :
    val_main_v19 (F := Ideal) x0 x1 x2 (ix2 n j)
      = Ideal.div (Cert.Score.mean (x0 (ix2 n (0 : Fin 2))) (x0 (ix2 n (1 : Fin 2))) - x1 (ix1 j))
          (Ideal.sqrt (Cert.Score.variance (x2 (ix1 j)) (x0 (ix2 n (1 : Fin 2))))) := by
  rw [val_main_v19_apply, val_main_v18_apply, val_main_v16_apply, idx_v16, val_main_v14_apply, idx_v14,
    mean_stage_apply, val_main_v17_apply, idx_v17, val_main_v15_apply, idx_v15, sqrt_stage_apply]
  rfl

/-- The score `r(n,j) = c · exp((-1/2) · u · u) / √v` at `(n, j)`: the specification's `scoreDiv`. -/
theorem score_stage_apply (x0 : (⟨S65536x2, .f32⟩ : BufTy).Contents (Elt Ideal))
    (x1 x2 : (⟨S1024, .f32⟩ : BufTy).Contents (Elt Ideal)) (n : Fin 65536) (j : Fin 1024) :
    val_main_v26 (F := Ideal) x0 x1 x2 (ix2 n j)
      = Cert.Score.scoreDiv (x0 (ix2 n (0 : Fin 2))) (x0 (ix2 n (1 : Fin 2))) (x1 (ix1 j)) (x2 (ix1 j)) := by
  rw [val_main_v26_apply, val_main_v25_apply, val_main_v24_apply, val_main_cst_1_apply, val_main_v23_apply,
    val_main_v22_apply, val_main_v21_apply, val_main_v20_apply, val_main_cst_0_apply, offset_stage_apply,
    sqrt_stage_apply]
  rfl

/-! ## The whole result -/

/-- The reference's result is the specification's: entry `(n, d)` is the sum over the basis functions of the score
    of query `n` against basis function `j` times the value coefficient `Bv(j, d)`. -/
theorem reference_eq_context (x0 : (⟨S65536x2, .f32⟩ : BufTy).Contents (Elt Ideal))
    (x1 x2 : (⟨S1024, .f32⟩ : BufTy).Contents (Elt Ideal))
    (x3 : (⟨S1024x1024, .f32⟩ : BufTy).Contents (Elt Ideal)) :
    Cert.ReferenceIdeal.Read.val_main_v27 (F := Ideal) x0 x1 x2 x3 = Cert.Score.context x0 x1 x2 x3 := by
  funext i
  obtain ⟨n, d, rfl⟩ : ∃ (n : Fin 65536) (d : Fin 1024), i = ValueIdx.ix2 n d := ⟨i 0, i 1, ValueIdx.eq_ix2 i⟩
  rw [val_main_v27_apply, Cert.Score.context_ix2]
  unfold Cert.Score.entry
  refine Finset.sum_congr rfl fun k _ => ?_
  rw [lidx_v27, ridx_v27, score_stage_apply]

end Cert.ReferenceIdeal.RefValue

end
-- ==== Proof.PreDomain.lean ====
/-
  The precondition's last conjunct, read back.

  The precondition is a conjunction of `all`s over the argument arrays. Its last conjunct forms, for every query `n`
  and basis function `j`, the variance under the reference's square root, `v(n,j) = (bσ j)² + (-1/2) / θ(n,1)` — by the
  same operations in the same order as the reference does — and asks that `v(n,j) > 0` everywhere. So where the
  precondition holds every variance under the root is positive: the domain on which the reference's square root and
  its quotients by the standard deviation are the ordinary ones.
-/
import proofs.«120436_j25391846654038_2_alg».proof.Proof.Gen.Pre_finite_inputs
import proofs.«120436_j25391846654038_2_alg».proof.Pre_finite_inputs
import proofs.«120436_j25391846654038_2_alg».proof.Proof.ReferenceValue
import Idealize.ShloMosaic.Lib.ReduceAll
import Idealize.ShloMosaic.Lib.ValueIdx

noncomputable section

namespace Cert.PreDomain

open Idealize.ShloMosaic Idealize.ShloMosaic.ValueIdx Cert.Pre_finite_inputs

/-- The scalar shape has one index. -/
instance : Subsingleton S_.Idx := ⟨fun _ _ => funext fun d => d.elim0⟩

/-- On the extended reals the comparison "greater than" answers 1 exactly on a strict inequality. -/
theorem lt_of_cmp_ogt {x y : EReal} (h : Ideal.cmp .ogt x y = 1#1) : y < x := by
  unfold Ideal.cmp at h
  by_contra hn
  simp [hn] at h

/-- The last conjunct alone: if the conjunction is 1 then the variance under the root is positive at every index. -/
theorem variance_pos_of_last [Facts] (θ : FVec Ideal S65536x2 .f32) (bσ : FVec Ideal S1024 .f32)
    (v13 : IVec S_ 1) (v16 : IVec S1024x1024 1)
    (h : fn_part1 (F := Ideal) θ bσ v13 v16 ix0 = 1#1) (i : S65536x1024.Idx) :
    (0 : EReal) < Cert.ReferenceIdeal.Read.val_main_v12 (F := Ideal) θ bσ i := by
  have h1 := (IntOp.andi_eq_one.1 h).2
  have h2 : cmpf .ogt (Cert.ReferenceIdeal.Read.val_main_v12 (F := Ideal) θ bσ)
      (broadcastInDim S65536x1024 ![] Facts.bcast_S_S65536x1024 (constant (F := Ideal) S_ .f32 0x00000000#32)) i = 1#1 :=
    Host.reduce_andi_all _ _ _ _ _ h1 i
  have h3 := lt_of_cmp_ogt h2
  rw [broadcastInDim_apply _ Facts.bcast_S_S65536x1024 _ i (fun a => a.elim0) (fun a => a.elim0)] at h3
  exact lt_of_eq_of_lt Ideal.ofBits_zero_f32.symm h3

/-- Where the precondition holds, every variance under the reference's square root is positive. -/
theorem positiveVariance_of_pre [Cert.Pre_finite_inputs.Facts]
    (θ : (⟨Cert.Pre_finite_inputs.S65536x2, .f32⟩ : BufTy).Contents (Elt Ideal))
    (bμ bσ : (⟨Cert.Pre_finite_inputs.S1024, .f32⟩ : BufTy).Contents (Elt Ideal))
    (Bv : (⟨Cert.Pre_finite_inputs.S1024x1024, .f32⟩ : BufTy).Contents (Elt Ideal))
    (h : Cert.Pre_finite_inputs.fn (F := Ideal) θ bμ bσ Bv = fun _ => 1#1) : Cert.Score.PositiveVariance θ bσ := by
  intro n j
  obtain ⟨v13, v16, h0⟩ : ∃ v13 v16, fn_part1 (F := Ideal) θ bσ v13 v16 ix0 = 1#1 := ⟨_, _, congrFun h ix0⟩
  exact lt_of_lt_of_eq (variance_pos_of_last θ bσ v13 v16 h0 (ix2 n j))
    (Cert.ReferenceIdeal.RefValue.variance_stage_apply θ bσ n j)

end Cert.PreDomain

end
-- ==== Proof.KernelBlock.lean ====
/-
  What the kernel leaves in its output block at one grid point, as ONE term of the point's four input blocks.

  The body zeroes a [1024,1024] accumulator and then, for each of the four chunks of 256 basis functions, adds to it
  the product of the chunk's [1024,256] score matrix with the chunk's [256,1024] rows of the value coefficients;
  the output block is the accumulator after the fourth chunk. The score matrix of a chunk (`scoreVec`) is formed
  from the query's variance column `σ² = (-1/2) / θ₁` and mean column `μ = θ₀ σ²` (both [1024,1]) and from the
  chunk's centres and widths (both [1,256]), with the reciprocal square root of the variance `width² + σ²`.
  The body's stores and loads of the accumulator go through the whole buffer, so each load reads the payload of the
  store before it; the four chunks' payloads are the same two functions (`scoreVec`, `accumulate`) of different slices.
-/
import proofs.«120436_j25391846654038_2_alg».proof.Proof.Gen.KernelIdeal.Frame
import Idealize.ShloMosaic.Lib.Pipeline.Value

set_option maxRecDepth 16384

noncomputable section

namespace Cert.KernelIdeal.Block

open Cert.KernelIdeal Cert.KernelIdeal.Gen Idealize.ShloMosaic Idealize.ShloMosaic.TcCoe Idealize.ShloMosaic.Tactic Idealize.SL.Sem
variable {F : FTy → Type} [FloatOps F]

/-- The whole-buffer rectangle's offsets are zero on both axes. -/
theorem zero_offsets : (![0, 0] : Fin 2 → Nat) = fun _ => 0 := by
  funext a; match a with | ⟨0, _⟩ => rfl | ⟨1, _⟩ => rfl

/-- The query's variance column: `(-1/2) / θ₁`, row by row. -/
def sigmaSqCol (x0 : Vec F S1024x2 .f32) : FVec F S1024x1 .f32 := k0_pay2 x0

/-- The query's mean column: `θ₀ · σ²`, row by row. -/
def meanCol (x0 : Vec F S1024x2 .f32) : FVec F S1024x1 .f32 := k0_pay3 x0

/-- The reciprocal standard deviation of one chunk: `rsqrt (width² + σ²)` over [1024,256]. -/
def invStd (v4 : FVec F S1024x1 .f32) (widths : Vec F S1x256 .f32) : FVec F S1024x256 .f32 :=
  rsqrt (addf (broadcastTo S1024x256 (mulf (shapeCast S1x256 widths shapeCasts_S1x256_S1x256) (shapeCast S1x256 widths shapeCasts_S1x256_S1x256)) broadcasts_S1x256_S1024x256)
    (broadcastTo S1024x256 v4 broadcasts_S1024x1_S1024x256))

/-- The deviation of one chunk: `μ - centre` over [1024,256]. -/
def deviation (v5 : FVec F S1024x1 .f32) (centres : Vec F S1x256 .f32) : FVec F S1024x256 .f32 :=
  subf (broadcastTo S1024x256 v5 broadcasts_S1024x1_S1024x256) (broadcastTo S1024x256 (shapeCast S1x256 centres shapeCasts_S1x256_S1x256) broadcasts_S1x256_S1024x256)

/-- The score matrix of one chunk from its deviation `D` and reciprocal standard deviation `W`:
    `c · exp((-1/2 · t) · t) · W` with `t = D · W`. -/
def scoreOf (D W : FVec F S1024x256 .f32) : FVec F S1024x256 .f32 :=
  mulf (mulf (broadcast S1024x256 (Scalar.ofBits .f32 0x3ECC422A#32))
      (exp (mulf (mulf (broadcast S1024x256 (Scalar.ofBits .f32 0xBF000000#32)) (mulf D W)) (mulf D W)))) W

/-- The score matrix of one chunk. -/
def scoreVec (v4 v5 : FVec F S1024x1 .f32) (centres widths : Vec F S1x256 .f32) : FVec F S1024x256 .f32 :=
  scoreOf (deviation v5 centres) (invStd v4 widths)

/-- One chunk's step: the accumulator plus the chunk's scores (rounded to bf16) times the chunk's value rows. -/
def accumulate (acc : Vec F S1024x1024 .f32) (R : FVec F S1024x256 .f32) (rows : FVec F S256x1024 .bf16) : FVec F S1024x1024 .f32 :=
  shapeCast S1024x1024 (addf acc (matmul dot_S1024x256_S256x1024_S1024x1024_1_0_0_1_n_n none (truncf .bf16 R bitsLt_bf16_f32) rows
    (constant S1024x1024 .f32 0x00000000#32))) shapeCasts_S1024x1024_S1024x1024

/-- The zeroed accumulator. -/
def zeroAcc : FVec F S1024x1024 .f32 := k0_pay4

/-- Columns `o … o+255` of a [1,1024] row of centres or widths. -/
abbrev rowSlice (o : Nat) (h : ∀ a, (![0, o] : Fin 2 → Nat) a + S1x256.size a ≤ S1x1024.size a) (x : Vec F S1x1024 .f32) : Vec F S1x256 .f32 :=
  View.ld x (Rect.unit ![0, o] ![1, 256] h)

/-- Rows `o … o+255` of the [1024,1024] value coefficients. -/
abbrev rowsSlice (o : Nat) (h : ∀ a, (![o, 0] : Fin 2 → Nat) a + S256x1024.size a ≤ S1024x1024.size a) (x : Vec F S1024x1024 .bf16) : Vec F S256x1024 .bf16 :=
  View.ld x (Rect.unit ![o, 0] ![256, 1024] h)

/-- The output block as one term of the four input blocks: four chunk steps from the zeroed accumulator. -/
def blockTerm (x0 : Vec F S1024x2 .f32) (x1 x2 : Vec F S1x1024 .f32) (x3 : Vec F S1024x1024 .bf16) : Vec F S1024x1024 .f32 :=
  accumulate
    (accumulate
      (accumulate
        (accumulate zeroAcc
          (scoreVec (sigmaSqCol x0) (meanCol x0) (rowSlice 0 inb_S1x1024_S1x256_0_0 x1) (rowSlice 0 inb_S1x1024_S1x256_0_0 x2))
          (shapeCast S256x1024 (rowsSlice 0 inb_S1024x1024_S256x1024_0_0 x3) shapeCasts_S256x1024_S256x1024))
        (scoreVec (sigmaSqCol x0) (meanCol x0) (rowSlice 256 inb_S1x1024_S1x256_0_256 x1) (rowSlice 256 inb_S1x1024_S1x256_0_256 x2))
        (shapeCast S256x1024 (rowsSlice 256 inb_S1024x1024_S256x1024_256_0 x3) shapeCasts_S256x1024_S256x1024))
      (scoreVec (sigmaSqCol x0) (meanCol x0) (rowSlice 512 inb_S1x1024_S1x256_0_512 x1) (rowSlice 512 inb_S1x1024_S1x256_0_512 x2))
      (shapeCast S256x1024 (rowsSlice 512 inb_S1024x1024_S256x1024_512_0 x3) shapeCasts_S256x1024_S256x1024))
    (scoreVec (sigmaSqCol x0) (meanCol x0) (rowSlice 768 inb_S1x1024_S1x256_0_768 x1) (rowSlice 768 inb_S1x1024_S1x256_0_768 x2))
    (shapeCast S256x1024 (rowsSlice 768 inb_S1024x1024_S256x1024_768_0 x3) shapeCasts_S256x1024_S256x1024)

/-- What the body leaves in the output's staging buffer is `blockTerm` of the input blocks: the one store to the
    output covers it; every load of the accumulator reads the store just before it; the inputs' loads read slices
    of their blocks. -/
theorem out_eq_blockTerm (c : Dev nD) (i : grid0.Coords) (arg1 : Memref sig .tc .vmem S1024x2 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (x0 : Vec F S1024x2 .f32) (x1 : Vec F S1x1024 .f32) (x2 : Vec F S1x1024 .f32) (x3 : Vec F S1024x1024 .bf16) :
    out0_A_4 c i arg1 harg1 arg2 harg2 arg3 harg3 arg4 harg4 arg5 harg5 arg6 harg6 x0 x1 x2 x3 = blockTerm x0 x1 x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_run_names
  rw [View.canon_unit_zero zero_offsets]
  simp only [View.readCov_cons_toLoadRect]
  simp only [View.readAt_eq_ld, harg1.read_unread, harg2.read_unread, harg3.read_unread, harg4.read_unread]
  rw [View.ld_unit_zero (S := S1024x2) zero_offsets]
  rfl

end Cert.KernelIdeal.Block

end
-- ==== Proof.KernelBlockValue.lean ====
/-
  The kernel's output block read at an entry, on the extended reals.

  Row `p` of a point's query block carries `θ₀ = x0(p,0)`, `θ₁ = x0(p,1)`. Entry `(p,d)` of the output block is the
  zeroed accumulator plus, chunk after chunk, `∑ k < 256` of the score of row `p` against basis function `o + k`
  (centre `x1(0,o+k)`, width `x2(0,o+k)`, in the reciprocal-square-root arrangement `Score.scoreMul`) times the value
  coefficient `x3(o+k,d)`, for `o = 0, 256, 512, 768`: the four partial sums of one sum over the 1024 basis functions.
  The rounding of the scores and of the coefficients to bf16 is the identity on the extended reals.
-/
import proofs.«120436_j25391846654038_2_alg».proof.Proof.KernelBlock
import proofs.«120436_j25391846654038_2_alg».proof.Proof.Score
import Idealize.ShloMosaic.Lib.ValueIdx
import Idealize.ShloMosaic.PureOps.Ideal.Laws
import Mathlib.Algebra.BigOperators.Fin
import Mathlib.Logic.Equiv.Fin.Basic

set_option maxRecDepth 16384

noncomputable section

open scoped BigOperators

namespace Cert.KernelIdeal.Block

open Cert.KernelIdeal Cert.KernelIdeal.Gen Idealize.ShloMosaic Idealize.ShloMosaic.ValueIdx

/-! ## The columns of the query block -/

/-- Row `p` of the variance column is `(-1/2) / θ₁`. -/
theorem sigmaSqCol_apply (x0 : Vec Ideal S1024x2 .f32) (p : Fin 1024) :
    sigmaSqCol x0 (ix2 p (0 : Fin 1)) = Cert.Score.sigmaSq (x0 (ix2 p (1 : Fin 2))) := by
  unfold sigmaSqCol k0_pay2 Cert.Score.sigmaSq
  refine congrArg (Ideal.div _) ?_
  exact extractStridedSlice_apply ![0, 1] x0 slices_S1024x2_o0_1_S1024x1 (ix2 p (0 : Fin 1)) (ix2 p (1 : Fin 2))
    (fun a => match a with
      | ⟨0, _⟩ => by show p.val = 0 + p.val; omega
      | ⟨1, _⟩ => rfl)

/-- Row `p` of the mean column is `θ₀ · σ²`. -/
theorem meanCol_apply (x0 : Vec Ideal S1024x2 .f32) (p : Fin 1024) :
    meanCol x0 (ix2 p (0 : Fin 1)) = Cert.Score.mean (x0 (ix2 p (0 : Fin 2))) (x0 (ix2 p (1 : Fin 2))) := by
  unfold meanCol k0_pay3 Cert.Score.mean
  show extractStridedSlice S1024x1 ![0, 0] x0 slices_S1024x2_o0_0_S1024x1 (ix2 p (0 : Fin 1)) * k0_pay2 x0 (ix2 p (0 : Fin 1)) = _
  rw [show k0_pay2 x0 (ix2 p (0 : Fin 1)) = Cert.Score.sigmaSq (x0 (ix2 p (1 : Fin 2))) from sigmaSqCol_apply x0 p]
  refine congrArg (· * _) ?_
  exact extractStridedSlice_apply ![0, 0] x0 slices_S1024x2_o0_0_S1024x1 (ix2 p (0 : Fin 1)) (ix2 p (0 : Fin 2))
    (fun a => match a with
      | ⟨0, _⟩ => by show p.val = 0 + p.val; omega
      | ⟨1, _⟩ => rfl)

/-! ## The two broadcasts of a chunk -/

/-- A [1,256] row spread over 1024 rows reads its own column. -/
theorem rowBroadcast_apply (r : FVec Ideal S1x256 .f32) (p : Fin 1024) (k : Fin 256) :
    broadcastTo S1024x256 r broadcasts_S1x256_S1024x256 (ix2 p k) = r (ix2 (0 : Fin 1) k) :=
  broadcastTo_apply r broadcasts_S1x256_S1024x256 (ix2 p k) (ix2 (0 : Fin 1) k) (fun a => match a with
    | ⟨0, _⟩ => rfl
    | ⟨1, _⟩ => rfl)

/-- A [1024,1] column spread over 256 columns reads its own row. -/
theorem colBroadcast_apply (v : FVec Ideal S1024x1 .f32) (p : Fin 1024) (k : Fin 256) :
    broadcastTo S1024x256 v broadcasts_S1024x1_S1024x256 (ix2 p k) = v (ix2 p (0 : Fin 1)) :=
  broadcastTo_apply v broadcasts_S1024x1_S1024x256 (ix2 p k) (ix2 p (0 : Fin 1)) (fun a => match a with
    | ⟨0, _⟩ => rfl
    | ⟨1, _⟩ => rfl)

/-- The reciprocal standard deviation at `(p,k)`: of the chunk's width `k` squared plus row `p`'s variance. -/
theorem invStd_apply (v4 : FVec Ideal S1024x1 .f32) (widths : Vec Ideal S1x256 .f32) (p : Fin 1024) (k : Fin 256) :
    invStd v4 widths (ix2 p k)
      = Ideal.rsqrt (widths (ix2 (0 : Fin 1) k) * widths (ix2 (0 : Fin 1) k) + v4 (ix2 p (0 : Fin 1))) := by
  unfold invStd
  rw [shapeCast_self]
  exact congrArg Ideal.rsqrt (congrArg₂ (· + ·) (rowBroadcast_apply (mulf widths widths) p k) (colBroadcast_apply v4 p k))

/-- The deviation at `(p,k)`: row `p`'s mean minus the chunk's centre `k`. -/
theorem deviation_apply (v5 : FVec Ideal S1024x1 .f32) (centres : Vec Ideal S1x256 .f32) (p : Fin 1024) (k : Fin 256) :
    deviation v5 centres (ix2 p k) = v5 (ix2 p (0 : Fin 1)) - centres (ix2 (0 : Fin 1) k) := by
  unfold deviation
  rw [shapeCast_self]
  exact congrArg₂ (· - ·) (colBroadcast_apply v5 p k) (rowBroadcast_apply centres p k)

/-- The chunk's score at `(p,k)` is the score of row `p`'s query against the chunk's basis function `k`, in the
    reciprocal-square-root arrangement. -/
theorem scoreVec_apply (x0 : Vec Ideal S1024x2 .f32) (centres widths : Vec Ideal S1x256 .f32) (p : Fin 1024) (k : Fin 256) :
    scoreVec (sigmaSqCol x0) (meanCol x0) centres widths (ix2 p k)
      = Cert.Score.scoreMul (x0 (ix2 p (0 : Fin 2))) (x0 (ix2 p (1 : Fin 2))) (centres (ix2 (0 : Fin 1) k)) (widths (ix2 (0 : Fin 1) k)) := by
  unfold scoreVec scoreOf
  show Ideal.ofBits .f32 0x3ECC422A#32 * Ideal.exp (Ideal.ofBits .f32 0xBF000000#32
        * (deviation (meanCol x0) centres (ix2 p k) * invStd (sigmaSqCol x0) widths (ix2 p k))
        * (deviation (meanCol x0) centres (ix2 p k) * invStd (sigmaSqCol x0) widths (ix2 p k)))
      * invStd (sigmaSqCol x0) widths (ix2 p k) = _
  rw [deviation_apply, invStd_apply, meanCol_apply, sigmaSqCol_apply]
  rfl

/-! ## One chunk's step -/

/-- The left operand's index at output `(p,d)` keeps the row `p` … -/
theorem lhs_row (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
/-- … and takes the contraction coordinate as its column; -/
theorem lhs_col (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- the right operand's takes the contraction coordinate as its row … -/
theorem rhs_row (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- … and keeps the column `d`. -/
theorem rhs_col (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The accumulator after a chunk, at `(p,d)`: what it held plus the chunk's scores of row `p` times column `d` of the
    chunk's value rows, summed over the chunk's 256 basis functions. -/
theorem accumulate_apply (acc : Vec Ideal S1024x1024 .f32) (R : FVec Ideal S1024x256 .f32) (rows : FVec Ideal S256x1024 .bf16)
    (p d : Fin 1024) :
    accumulate acc R rows (ix2 p d) = acc (ix2 p d) + ∑ k : Fin 256, R (ix2 p k) * rows (ix2 k d) := by
  unfold accumulate
  rw [shapeCast_self]
  show acc (ix2 p d) + FloatOps.matmul dot_S1024x256_S256x1024_S1024x1024_1_0_0_1_n_n none (truncf .bf16 R bitsLt_bf16_f32) rows
    (constant S1024x1024 .f32 0x00000000#32) (ix2 p d) = _
  refine congrArg (acc (ix2 p d) + ·) ?_
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p d)
      ((contrEquiv1 dot_S1024x256_S256x1024_S1024x1024_1_0_0_1_n_n 256 rfl rfl).symm k) = ix2 p k :=
    funext fun a => Fin.ext (by
      match a with
      | ⟨0, _⟩ => exact lhs_row _ _
      | ⟨1, _⟩ => exact (lhs_col _ _).trans hk)
  have er : dot_S1024x256_S256x1024_S1024x1024_1_0_0_1_n_n.rhsIdx (ix2 p d)
      ((contrEquiv1 dot_S1024x256_S256x1024_S1024x1024_1_0_0_1_n_n 256 rfl rfl).symm k) = ix2 k d :=
    funext fun a => Fin.ext (by
      match a with
      | ⟨0, _⟩ => exact (rhs_row _ _).trans hk
      | ⟨1, _⟩ => exact rhs_col _ _)
  rw [el, er]
  rfl

/-- The zeroed accumulator is zero. -/
theorem zeroAcc_apply (p d : Fin 1024) : (zeroAcc (F := Ideal)) (ix2 p d) = 0 := by
  unfold zeroAcc k0_pay4
  rw [shapeCast_self]
  exact Ideal.ofBits_zero_f32

/-! ## The slices of a chunk -/

/-- Column `k` of the slice from column `o` of a [1,1024] row is column `o + k` of the row. -/
theorem rowSlice_apply (o : Nat) (ho : o + 256 ≤ 1024) (h : ∀ a, (![0, o] : Fin 2 → Nat) a + S1x256.size a ≤ S1x1024.size a)
    (x : Vec Ideal S1x1024 .f32) (k : Fin 256) :
    rowSlice o h x (ix2 (0 : Fin 1) k) = x (ix2 (0 : Fin 1) (⟨o + k.val, by have := k.isLt; omega⟩ : Fin 1024)) := by
  dsimp only [rowSlice, View.ld]
  refine congrArg x (funext fun a => Fin.ext ?_)
  match a with
  | ⟨0, _⟩ => rfl
  | ⟨1, _⟩ => show o + 1 * k.val = o + k.val; omega

/-- Entry `(k,d)` of the slice from row `o` of the [1024,1024] coefficients is entry `(o + k, d)`. -/
theorem rowsSlice_apply (o : Nat) (ho : o + 256 ≤ 1024) (h : ∀ a, (![o, 0] : Fin 2 → Nat) a + S256x1024.size a ≤ S1024x1024.size a)
    (x : Vec Ideal S1024x1024 .bf16) (k : Fin 256) (d : Fin 1024) :
    shapeCast S256x1024 (rowsSlice o h x) shapeCasts_S256x1024_S256x1024 (ix2 k d)
      = x (ix2 (⟨o + k.val, by have := k.isLt; omega⟩ : Fin 1024) d) := by
  rw [shapeCast_self]
  dsimp only [rowsSlice, View.ld]
  refine congrArg x (funext fun a => Fin.ext ?_)
  match a with
  | ⟨0, _⟩ => show o + 1 * k.val = o + k.val; omega
  | ⟨1, _⟩ => show 0 + 1 * d.val = d.val; omega

end Cert.KernelIdeal.Block

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.SumChunks.lean ====
/-
  A sum over the 1024 basis functions is the sum of its four partial sums over consecutive chunks of 256, added
  in the order the kernel adds them (any commutative additive monoid: the extended reals' addition is associative
  and commutative at the infinities too).
-/
import proofs.«120436_j25391846654038_2_alg».proof.Proof.LibSumBlocks
import Mathlib.Algebra.BigOperators.Fin

namespace Cert.SumChunks

open scoped BigOperators

/-- `∑ j < 1024, f j = ((∑ k, f k + ∑ k, f (256 + k)) + ∑ k, f (512 + k)) + ∑ k, f (768 + k)`, `k < 256`. -/
theorem sum_four_chunks {M : Type*} [AddCommMonoid M] (f : Fin 1024 → M) :
    ∑ j, f j
      = ((∑ k : Fin 256, f ⟨0 + k.val, by have := k.isLt; omega⟩
          + ∑ k : Fin 256, f ⟨256 + k.val, by have := k.isLt; omega⟩)
          + ∑ k : Fin 256, f ⟨512 + k.val, by have := k.isLt; omega⟩)
          + ∑ k : Fin 256, f ⟨768 + k.val, by have := k.isLt; omega⟩ := by
  rw [show (∑ j, f j) = ∑ c : Fin 4, ∑ r : Fin 256, f ⟨256 * c.val + r.val, by have := c.isLt; have := r.isLt; omega⟩ from
    Cert.SumBlocks.sum_blocks 4 256 f, Fin.sum_univ_four]
  rfl

end Cert.SumChunks
-- ==== Proof.KernelBlockEntry.lean ====
/-
  Entry `(p,d)` of the kernel's output block as ONE sum over the 1024 basis functions.

  With `θ₀ = x0(p,0)`, `θ₁ = x0(p,1)` the parameters of row `p`'s query, `x1(0,j)`, `x2(0,j)` the centre and width of
  basis function `j` and `x3(j,d)` its value coefficient, the four chunk steps add up to
  `∑ j < 1024, scoreMul θ₀ θ₁ (x1(0,j)) (x2(0,j)) · x3(j,d)`; and where every variance `x2(0,j)² + (-1/2)/θ₁` of the
  row is positive each score is the reference's `scoreDiv`.
-/
import proofs.«120436_j25391846654038_2_alg».proof.Proof.KernelBlockValue
import proofs.«120436_j25391846654038_2_alg».proof.Proof.SumChunks

set_option maxRecDepth 16384

noncomputable section

open scoped BigOperators

namespace Cert.KernelIdeal.Block

open Cert.KernelIdeal Cert.KernelIdeal.Gen Idealize.ShloMosaic Idealize.ShloMosaic.ValueIdx

/-- What basis function `j` contributes to entry `(p,d)` of the block. -/
def term (x0 : Vec Ideal S1024x2 .f32) (x1 x2 : Vec Ideal S1x1024 .f32) (x3 : Vec Ideal S1024x1024 .bf16)
    (p d : Fin 1024) (j : Fin 1024) : EReal :=
  Cert.Score.scoreMul (x0 (ix2 p (0 : Fin 2))) (x0 (ix2 p (1 : Fin 2))) (x1 (ix2 (0 : Fin 1) j)) (x2 (ix2 (0 : Fin 1) j))
    * x3 (ix2 j d)

/-- One chunk step at `(p,d)`: the accumulator plus the contributions of basis functions `o … o+255`. -/
theorem chunk_apply (o : Nat) (ho : o + 256 ≤ 1024)
    (h1 : ∀ a, (![0, o] : Fin 2 → Nat) a + S1x256.size a ≤ S1x1024.size a)
    (h3 : ∀ a, (![o, 0] : Fin 2 → Nat) a + S256x1024.size a ≤ S1024x1024.size a)
    (acc : Vec Ideal S1024x1024 .f32) (x0 : Vec Ideal S1024x2 .f32) (x1 x2 : Vec Ideal S1x1024 .f32)
    (x3 : Vec Ideal S1024x1024 .bf16) (p d : Fin 1024) :
    accumulate acc (scoreVec (sigmaSqCol x0) (meanCol x0) (rowSlice o h1 x1) (rowSlice o h1 x2))
        (shapeCast S256x1024 (rowsSlice o h3 x3) shapeCasts_S256x1024_S256x1024) (ix2 p d)
      = acc (ix2 p d) + ∑ k : Fin 256, term x0 x1 x2 x3 p d ⟨o + k.val, by have := k.isLt; omega⟩ := by
  rw [accumulate_apply]
  refine congrArg (acc (ix2 p d) + ·) (Finset.sum_congr rfl fun k _ => ?_)
  rw [scoreVec_apply, rowSlice_apply o ho h1 x1 k, rowSlice_apply o ho h1 x2 k, rowsSlice_apply o ho h3 x3 k d]
  rfl

/-- Entry `(p,d)` of the block: the sum of the contributions of all 1024 basis functions. -/
theorem blockTerm_apply (x0 : Vec Ideal S1024x2 .f32) (x1 x2 : Vec Ideal S1x1024 .f32) (x3 : Vec Ideal S1024x1024 .bf16)
    (p d : Fin 1024) :
    blockTerm x0 x1 x2 x3 (ix2 p d) = ∑ j : Fin 1024, term x0 x1 x2 x3 p d j := by
  unfold blockTerm
  rw [chunk_apply 768 (by omega), chunk_apply 512 (by omega), chunk_apply 256 (by omega), chunk_apply 0 (by omega),
    zeroAcc_apply, zero_add]
  exact (Cert.SumChunks.sum_four_chunks (term x0 x1 x2 x3 p d)).symm

/-- Where the row's variances are positive, each contribution is the reference's score times the coefficient. -/
theorem blockTerm_apply_of_pos (x0 : Vec Ideal S1024x2 .f32) (x1 x2 : Vec Ideal S1x1024 .f32) (x3 : Vec Ideal S1024x1024 .bf16)
    (p d : Fin 1024)
    (hpos : ∀ j : Fin 1024, 0 < Cert.Score.variance (x2 (ix2 (0 : Fin 1) j)) (x0 (ix2 p (1 : Fin 2)))) :
    blockTerm x0 x1 x2 x3 (ix2 p d)
      = ∑ j : Fin 1024, Cert.Score.scoreDiv (x0 (ix2 p (0 : Fin 2))) (x0 (ix2 p (1 : Fin 2))) (x1 (ix2 (0 : Fin 1) j)) (x2 (ix2 (0 : Fin 1) j))
          * x3 (ix2 j d) := by
  rw [blockTerm_apply]
  refine Finset.sum_congr rfl fun j _ => ?_
  unfold term
  rw [Cert.Score.scoreMul_eq_scoreDiv (hpos j)]

end Cert.KernelIdeal.Block

end
-- ==== Proof.KernelInputs.lean ====
/-
  What the kernel's windows hold at a grid point.

  The kernel runs over a grid of 64 points. At point `t` its first input window holds rows `1024·t … 1024·t + 1023` of
  the natural parameters `θ`; its second and third hold the basis centres and widths, each reshaped to one row of 1024;
  its fourth holds the whole array of value coefficients, narrowed to a shorter format (on the extended reals a change
  of format is the identity); and its output window is rows `1024·t … 1024·t + 1023` of the result. Every row of the
  result lies in exactly one point's output block.
-/
import proofs.«120436_j25391846654038_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Inputs

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ) (c : Dev nD)

/-- The grid has 64 points. -/
theorem t_lt (t : Fin cfg0.N) : t.val < 64 := lt_of_lt_of_eq t.isLt Gen.N_0

/-- The windows' block indices at every grid point: the first input window and the output window are at block row
    `t`, column `0`; the other three input windows are whole arrays, at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A vector of 1024 reshaped to one row of 1024, read at column `j`, is the vector at `j`. -/
theorem reshape_row_apply (x : S1024.Idx → EReal) (j : Fin 1024) :
    shapeCast S1x1024 x shapeCasts_S1024_S1x1024 (ix2 (0 : Fin 1) j) = x (ix1 j) :=
  shapeCast_apply x shapeCasts_S1024_S1x1024 (ix2 (0 : Fin 1) j) (ix1 j)
    (by rw [Shape.rowMajor_val_one, Shape.rowMajor_val_two]; show j.val = 0 * 1024 + j.val; omega)

/-- The basis centres as the region finds them: reshaped to one row. -/
theorem V_main_v0 : (V m c main_v0 : S1x1024.Idx → EReal)
    = shapeCast S1x1024 (m ((c : Thread nD τ).loc main_arg1)) shapeCasts_S1024_S1x1024 := by
  dsimp only [Gen.V, Gen.hostOps0]; after_results; rfl

/-- The basis widths as the region finds them: reshaped to one row. -/
theorem V_main_v1 : (V m c main_v1 : S1x1024.Idx → EReal)
    = shapeCast S1x1024 (m ((c : Thread nD τ).loc main_arg2)) shapeCasts_S1024_S1x1024 := by
  dsimp only [Gen.V, Gen.hostOps0]; after_results; rfl

/-- The value coefficients as the region finds them: narrowed, which on the extended reals changes nothing. -/
theorem V_main_v2 : (V m c main_v2 : S1024x1024.Idx → EReal)
    = (m ((c : Thread nD τ).loc main_arg3) : S1024x1024.Idx → EReal) := by
  dsimp only [Gen.V, Gen.hostOps0]; after_results; rfl

/-- The first input window at point `t` holds rows `1024·t + p` of the natural parameters. -/
theorem iblk0_apply (t : Fin cfg0.N) (p : Fin 1024) (a : Fin 2) :
    iblk m c 0 t (ix2 p a) = m ((c : Thread nD τ).loc main_arg0)
      (ix2 (⟨1024 * t.val + p.val, by have := t_lt t; have := p.isLt; omega⟩ : Fin 65536) a) := by
  obtain ⟨e0, e1, -⟩ := idx_facts t
  show V m c main_arg0 (((cfg0.win 0).blk t).view.emb (ix2 p a)) = _
  rw [V_main_arg0]
  refine congrArg _ (funext fun b => Fin.ext ?_)
  match b with
  | ⟨0, _⟩ => show win0_0.index t (0 : Fin 2) * 1024 + 1 * p.val = 1024 * t.val + p.val; omega
  | ⟨1, _⟩ => show win0_0.index t (1 : Fin 2) * 2 + 1 * a.val = a.val; omega

/-- The second input window holds the basis centres, at every point. -/
theorem iblk1_apply (t : Fin cfg0.N) (j : Fin 1024) :
    iblk m c 1 t (ix2 (0 : Fin 1) j) = m ((c : Thread nD τ).loc main_arg1) (ix1 j) := by
  obtain ⟨-, -, e0, e1, -⟩ := idx_facts t
  have hemb : ((cfg0.win 1).blk t).view.emb (ix2 (0 : Fin 1) j) = ix2 (0 : Fin 1) j := by
    funext b; apply Fin.ext
    match b with
    | ⟨0, _⟩ => show win0_1.index t (0 : Fin 2) * 1 + 1 * 0 = 0; omega
    | ⟨1, _⟩ => show win0_1.index t (1 : Fin 2) * 1024 + 1 * j.val = j.val; omega
  show V m c main_v0 (((cfg0.win 1).blk t).view.emb (ix2 (0 : Fin 1) j)) = _
  rw [hemb]
  exact (congrFun (V_main_v0 m c) _).trans (reshape_row_apply _ j)

/-- The third input window holds the basis widths, at every point. -/
theorem iblk2_apply (t : Fin cfg0.N) (j : Fin 1024) :
    iblk m c 2 t (ix2 (0 : Fin 1) j) = m ((c : Thread nD τ).loc main_arg2) (ix1 j) := by
  obtain ⟨-, -, -, -, e0, e1, -⟩ := idx_facts t
  have hemb : ((cfg0.win 2).blk t).view.emb (ix2 (0 : Fin 1) j) = ix2 (0 : Fin 1) j := by
    funext b; apply Fin.ext
    match b with
    | ⟨0, _⟩ => show win0_2.index t (0 : Fin 2) * 1 + 1 * 0 = 0; omega
    | ⟨1, _⟩ => show win0_2.index t (1 : Fin 2) * 1024 + 1 * j.val = j.val; omega
  show V m c main_v1 (((cfg0.win 2).blk t).view.emb (ix2 (0 : Fin 1) j)) = _
  rw [hemb]
  exact (congrFun (V_main_v1 m c) _).trans (reshape_row_apply _ j)

/-- The fourth input window holds the value coefficients, at every point. -/
theorem iblk3_apply (t : Fin cfg0.N) (j d : Fin 1024) :
    iblk m c 3 t (ix2 j d) = m ((c : Thread nD τ).loc main_arg3) (ix2 j d) := by
  obtain ⟨-, -, -, -, -, -, e0, e1, -⟩ := idx_facts t
  have hemb : ((cfg0.win 3).blk t).view.emb (ix2 j d) = ix2 j d := by
    funext b; apply Fin.ext
    match b with
    | ⟨0, _⟩ => show win0_3.index t (0 : Fin 2) * 1024 + 1 * j.val = j.val; omega
    | ⟨1, _⟩ => show win0_3.index t (1 : Fin 2) * 1024 + 1 * d.val = d.val; omega
  show V m c main_v2 (((cfg0.win 3).blk t).view.emb (ix2 j d)) = _
  rw [hemb]
  exact congrFun (V_main_v2 m c) _

/-- The output window at point `t` is rows `1024·t + p` of the result. -/
theorem out_emb (t : Fin cfg0.N) (p d : Fin 1024) :
    ((cfg0.win 4).blk t).view.emb (ix2 p d)
      = ix2 (⟨1024 * t.val + p.val, by have := t_lt t; have := p.isLt; omega⟩ : Fin 65536) d := by
  obtain ⟨-, -, -, -, -, -, -, -, e0, e1⟩ := idx_facts t
  funext b; apply Fin.ext
  match b with
  | ⟨0, _⟩ => show win0_4.index t (0 : Fin 2) * 1024 + 1 * p.val = 1024 * t.val + p.val; omega
  | ⟨1, _⟩ => show win0_4.index t (1 : Fin 2) * 1024 + 1 * d.val = d.val; omega

/-- An index of the result is in point `t`'s output block iff each coordinate is in the block's range on its axis. -/
theorem mem_blk4 (t : Fin cfg0.N) (i : S65536x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the result is in the output block of some grid point, and that point writes its block back. -/
theorem cover4 (i : S65536x1024.Idx) :
    ∃ t : Fin cfg0.N, (cfg0.win 4).flush t = true ∧ i ∈ ((cfg0.win 4).blk t).view.set := by
  have hi0 : (i 0).val < 65536 := (i 0).isLt
  have hi1 : (i 1).val < 1024 := (i 1).isLt
  have hN : cfg0.N = 64 := Gen.N_0
  refine ⟨⟨(i 0).val / 1024, by rw [hN]; omega⟩, flush0_4 _, ?_⟩
  rw [mem_blk4]
  obtain ⟨-, -, -, -, -, -, -, -, e0, e1⟩ := idx_facts ⟨(i 0).val / 1024, by rw [hN]; omega⟩
  intro a
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 1024 ≤ (i 1).val ∧ (i 1).val < win0_4.index _ (1 : Fin 2) * 1024 + 1024
    rw [e1]; omega

end Cert.KernelIdeal.Inputs

end
-- ==== Proof.KernelArray.lean ====
/-
  From the blocks to the whole result array of the kernel's program, on the extended reals.

  Grid point `t` (of 64) stages rows `1024·t … 1024·t + 1023` of the query parameters, the whole rows of centres and
  widths and the whole matrix of value coefficients, and writes back rows `1024·t … 1024·t + 1023` of the result.
  Row `p` of that block is the block entry of `Block.blockTerm_apply_of_pos` at the query `n = 1024·t + p`: where every
  variance under the root is positive it is entry `(n, d)` of the specification `Score.context` of the argument arrays.
  The 64 blocks tile the result, so after the run the result array IS `Score.context` of the arguments.
-/
import proofs.«120436_j25391846654038_2_alg».proof.Proof.Gen.KernelIdeal.Value
import proofs.«120436_j25391846654038_2_alg».proof.Proof.KernelBlockEntry
import proofs.«120436_j25391846654038_2_alg».proof.Proof.KernelInputs
import proofs.«120436_j25391846654038_2_alg».proof.Proof.Score

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at the argument arrays as launched on core `c`. -/
abbrev spec (c : Dev nD) : S65536x1024.Idx → EReal :=
  Cert.Score.context (m ((c : Thread nD τ).loc main_arg0)) (m ((c : Thread nD τ).loc main_arg1))
    (m ((c : Thread nD τ).loc main_arg2)) (m ((c : Thread nD τ).loc main_arg3))

/-- The positivity of every variance under the root, of the arguments as launched on core `c`. -/
abbrev Positive (c : Dev nD) : Prop :=
  Cert.Score.PositiveVariance (m ((c : Thread nD τ).loc main_arg0)) (m ((c : Thread nD τ).loc main_arg2))

/-- Entry `(p,d)` of the block point `t` writes back is entry `(1024·t + p, d)` of the specification. -/
theorem block_entry (c : Dev nD) (hpos : Positive m c) (t : Fin cfg0.N) (p d : Fin 1024) :
    Block.blockTerm (iblk m c 0 t) (iblk m c 1 t) (iblk m c 2 t) (iblk m c 3 t) (ix2 p d)
      = spec m c (((cfg0.win 4).blk t).view.emb (ix2 p d)) := by
  rw [Inputs.out_emb t p d]
  refine (Block.blockTerm_apply_of_pos (iblk m c 0 t) (iblk m c 1 t) (iblk m c 2 t) (iblk m c 3 t) p d ?_).trans ?_
  · intro j
    rw [Inputs.iblk2_apply m c t j, Inputs.iblk0_apply m c t p (1 : Fin 2)]
    exact hpos _ j
  · show _ = Cert.Score.entry _ _ _ _ _ d
    unfold Cert.Score.entry
    refine Finset.sum_congr rfl fun j _ => ?_
    rw [Inputs.iblk0_apply m c t p (0 : Fin 2), Inputs.iblk0_apply m c t p (1 : Fin 2), Inputs.iblk1_apply m c t j,
      Inputs.iblk2_apply m c t j, Inputs.iblk3_apply m c t j d]

/-- What point `t` writes back is block `t` of the specification. -/
theorem flushed_eq (c : Dev nD) (hpos : Positive m c) (t : Fin cfg0.N) :
    (dats m 0 c).flushed 4 t = ((cfg0.win 4).blk t).view.read (Elt Ideal) (spec m c) := by
  rw [Cert.KernelIdeal.Value.flushed4_A, Block.out_eq_blockTerm]
  funext y
  obtain ⟨p, d, rfl⟩ : ∃ (p : Fin 1024) (d : Fin 1024), y = ix2 p d := ⟨y 0, y 1, eq_ix2 y⟩
  exact block_entry m c hpos t p d

/-- After the run the result array is the specification of the arguments. -/
theorem final (c : Dev nD) (hpos : Positive m c) : (dats m 0 c).arrAt 4 cfg0.N = spec m c :=
  (dats m 0 c).arrAt_eq_of_cover 4 (spec m c) (fun t _ => flushed_eq m c hpos t) Inputs.cover4

/-- The kernel's run with its result named: where every variance under the root is positive, every weakly fair
    execution ends with the result array at the specification of the arguments and the arguments unchanged. -/
theorem run (hpos : ∀ c : Dev nD, Positive m c) :
    θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hpos c)), (h c).2⟩)
    (Cert.KernelIdeal.Value.run_blocks m ρ)

end Cert.KernelIdeal.ArrayValue

end
-- ==== Proof.lean ====
/-
  The certificate of a fused Gaussian-basis scoring kernel against its jnp reference, on the extended reals.

  For 65536 queries, each a Gaussian given by natural parameters `θ(n,0), θ(n,1)` (variance `σ² = (-1/2)/θ(n,1)`, mean
  `μ = θ(n,0)·σ²`), and 1024 Gaussian basis functions of centre `bμ j` and width `bσ j`, both programs form the scores
  `r(n,j) = c · exp((-1/2)·u·u) / √v`, `u = (μ - bμ j)/√v`, `v = (bσ j)² + σ²`, and return `r · Bv` ([65536,1024]).
  The reference divides by `√v`; the kernel multiplies by the reciprocal square root of `v`, rounds the scores and the
  coefficients to bf16 (the identity here) and adds the contraction up in four chunks of 256 basis functions over a
  grid of 64 row blocks. The precondition asks, besides finite inputs, that every `v(n,j)` be positive — the domain of
  the reference's square root and quotients; there the two arrangements are one number (Proof/InvSqrtLaw.lean), and the
  order of a sum does not matter on the extended reals.

  The modules: Proof/Score.lean the specification; Proof/ReferenceValue.lean the reference's result is the
  specification; Proof/PreDomain.lean the precondition gives the positive variances; Proof/KernelBlock.lean,
  KernelBlockValue.lean, KernelBlockEntry.lean one grid point's output block; Proof/KernelInputs.lean what the input
  blocks hold; Proof/KernelArray.lean the blocks tile the result. The three frames are the generated ones (the
  reference's from its generated run), and the idealization rewrote nothing, so `preserves` is trivial.
-/
import proofs.«120436_j25391846654038_2_alg».proof.Defs
import proofs.«120436_j25391846654038_2_alg».proof.Proof.Gen.Kernel
import proofs.«120436_j25391846654038_2_alg».proof.Proof.Gen.Kernel.Skeleton
import proofs.«120436_j25391846654038_2_alg».proof.Proof.Gen.Kernel.Launch
import proofs.«120436_j25391846654038_2_alg».proof.Proof.Gen.Kernel.Points
import proofs.«120436_j25391846654038_2_alg».proof.Proof.Gen.Kernel.Frame
import proofs.«120436_j25391846654038_2_alg».proof.Proof.Gen.KernelIdeal
import proofs.«120436_j25391846654038_2_alg».proof.Proof.Gen.KernelIdeal.Skeleton
import proofs.«120436_j25391846654038_2_alg».proof.Proof.Gen.KernelIdeal.Launch
import proofs.«120436_j25391846654038_2_alg».proof.Proof.Gen.KernelIdeal.Points
import proofs.«120436_j25391846654038_2_alg».proof.Proof.Gen.KernelIdeal.Frame
import proofs.«120436_j25391846654038_2_alg».proof.Proof.Gen.ReferenceIdeal
import proofs.«120436_j25391846654038_2_alg».proof.Proof.Gen.Pre_finite_inputs
import proofs.«120436_j25391846654038_2_alg».proof.Proof.Gen.KernelIdeal.Value
import proofs.«120436_j25391846654038_2_alg».proof.Proof.Gen.ReferenceIdeal.Run
import proofs.«120436_j25391846654038_2_alg».proof.Proof.Gen.ReferenceIdeal.Read
import proofs.«120436_j25391846654038_2_alg».proof.Proof.ReferenceValue
import proofs.«120436_j25391846654038_2_alg».proof.Proof.PreDomain
import proofs.«120436_j25391846654038_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, the kernel's result array and the reference's
    are both the specification `Score.context` of the arguments: the kernel's because every variance under the root
    is positive there, the reference's always. -/
theorem algebraic : Cert.algebraic_KernelIdeal_ReferenceIdeal := by
  intro m ρ m' ρ' hpre hagree
  have hpos : ∀ c : Dev Cert.KernelIdeal.nD, Cert.KernelIdeal.ArrayValue.Positive m c := fun c =>
    Cert.PreDomain.positiveVariance_of_pre _ _ _ _ (hpre c)
  refine ⟨fun c => Cert.KernelIdeal.ArrayValue.spec m c, Cert.KernelIdeal.ArrayValue.run m ρ hpos, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.reference_eq_context,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
